-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000x128 : Shape := ⟨2, ![1600000, 128]⟩
abbrev S1600000 : Shape := ⟨1, ![1600000]⟩
abbrev S64x128 : Shape := ⟨2, ![64, 128]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000x128 : S_.BroadcastsInDim S1600000x128 (![] : Fin 0 → Fin S1600000x128.rank)
  reducesTo_S1600000x128_S_d0_1 : S1600000x128.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S100000x64 .f32) (main_arg1 : FVec F S1600000x128 .f32) (main_arg2 : IVec S1600000 32) (main_arg3 : IVec S1600000 32) (main_arg4 : FVec F S64x128 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000x128 .f32 := Host.absf main_arg1
  let main_cst_0 : FVec F S_ .f32 := constant S_ .f32 0x7F800000#32
  let main_v5 : FVec F S1600000x128 .f32 := broadcastInDim S1600000x128 ![] bcast_S_S1600000x128 main_cst_0
  let main_v6 : IVec S1600000x128 1 := cmpf .olt main_v4 main_v5
  let main_c_1 : IVec S_ 1 := constantI S_ 1 1#1
  let main_v7 : IVec S_ 1 := (fun x v => Host.reduce IntOp.andi x v reducesTo_S1600000x128_S_d0_1 h_S_) main_v6 main_c_1
  let main_v8 : IVec S_ 1 := andi main_v3 main_v7
  let main_v9 : FVec F S64x128 .f32 := Host.absf main_arg4
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S100000x64 : Shape := ⟨2, ![100000, 64]⟩
abbrev S1600000x128 : Shape := ⟨2, ![1600000, 128]⟩
abbrev S1600000 : Shape := ⟨1, ![1600000]⟩
abbrev S64x128 : Shape := ⟨2, ![64, 128]⟩
abbrev S64 : Shape := ⟨1, ![64]⟩
abbrev S800000x256 : Shape := ⟨2, ![800000, 256]⟩
abbrev S128x64 : Shape := ⟨2, ![128, 64]⟩
abbrev S_ : Shape := ⟨0, ![]⟩
abbrev S128x128 : Shape := ⟨2, ![128, 128]⟩
abbrev S256x128 : Shape := ⟨2, ![256, 128]⟩
abbrev S128 : Shape := ⟨1, ![128]⟩
abbrev S1x128 : Shape := ⟨2, ![1, 128]⟩
abbrev S800000x128 : Shape := ⟨2, ![800000, 128]⟩
abbrev S8000x256 : Shape := ⟨2, ![8000, 256]⟩
abbrev S8000x128 : Shape := ⟨2, ![8000, 128]⟩
abbrev S1600000x64 : Shape := ⟨2, ![1600000, 64]⟩
abbrev S1600000x1 : Shape := ⟨2, ![1600000, 1]⟩

abbrev nBuf : Space → Nat
  | .hbm => 31
  | .vmem => 6
  | .smem => 0
  | _ => 0

abbrev bufTy : (tb : Table) → Fin (tcTables nBuf tb) → BufTy
  | .hbm, ⟨0, _⟩ => ⟨S100000x64, .f32⟩
  | .hbm, ⟨1, _⟩ => ⟨S1600000x128, .f32⟩
  | .hbm, ⟨2, _⟩ => ⟨S1600000, .i32⟩
  | .hbm, ⟨3, _⟩ => ⟨S1600000, .i32⟩
  | .hbm, ⟨4, _⟩ => ⟨S64x128, .f32⟩
  | .hbm, ⟨5, _⟩ => ⟨S64, .f32⟩
  | .hbm, ⟨6, _⟩ => ⟨S800000x256, .f32⟩
  | .hbm, ⟨7, _⟩ => ⟨S128x64, .f32⟩
  | .hbm, ⟨8, _⟩ => ⟨S_, .f32⟩
  | .hbm, ⟨9, _⟩ => ⟨S128x64, .f32⟩
  | .hbm, ⟨10, _⟩ => ⟨S128x128, .f32⟩
  | .hbm, ⟨11, _⟩ => ⟨S128x128, .f32⟩
  | .hbm, ⟨12, _⟩ => ⟨S256x128, .f32⟩
  | .hbm, ⟨13, _⟩ => ⟨S128, .f32⟩
  | .hbm, ⟨14, _⟩ => ⟨S1x128, .f32⟩
  | .hbm, ⟨15, _⟩ => ⟨S800000x128, .f32⟩
  | .hbm, ⟨16, _⟩ => ⟨S1600000x64, .f32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x64, .f32⟩
  | .hbm, ⟨26, _⟩ => ⟨S1600000x64, .f32⟩
  | .hbm, ⟨27, _⟩ => ⟨S_, .f32⟩
  | .hbm, ⟨28, _⟩ => ⟨S100000x64, .f32⟩
  | .hbm, ⟨29, _⟩ => ⟨S1600000x1, .i32⟩
  | .hbm, ⟨30, _⟩ => ⟨S100000x64, .f32⟩
  | .local _ .vmem, ⟨0, _⟩ => ⟨S8000x256, .f32⟩
  | .local _ .vmem, ⟨1, _⟩ => ⟨S8000x256, .f32⟩
  | .local _ .vmem, ⟨2, _⟩ => ⟨S256x128, .f32⟩
  | .local _ .vmem, ⟨3, _⟩ => ⟨S1x128, .f32⟩
  | .local _ .vmem, ⟨4, _⟩ => ⟨S8000x128, .f32⟩
  | .local _ .vmem, ⟨5, _⟩ => ⟨S8000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_v11 : Ref sig .tc := ⟨.hbm, 19, rfl⟩
abbrev main_c_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1600000x128_S800000x256 : S1600000x128.ShapeCasts S800000x256
  transposes_S64x128_S128x64_1_0 : S64x128.Transposes [1, 0] S128x64
  bcast_S_S128x64 : S_.BroadcastsInDim S128x64 (![] : Fin 0 → Fin S128x64.rank)
  concatenates_S128x64_S128x64_S128x128_d1 : Shape.Concatenates [S128x64, S128x64] S128x128 1
  concatenates_S128x128_S128x128_S256x128_d0 : Shape.Concatenates [S128x128, S128x128] S256x128 0
  concatenates_S64_S64_S128_d0 : Shape.Concatenates [S64, S64] S128 0
  shapeCasts_S128_S1x128 : S128.ShapeCasts S1x128
  inb_S8000x256_S8000x256_0_0 : ∀ a, (![0, 0] : Fin 2 → Nat) a + S8000x256.size a ≤ S8000x256.size a
  h_S8000x256 : 0 < S8000x256.numel
  shapeCasts_S8000x256_S8000x256 : S8000x256.ShapeCasts S8000x256
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  inb_S8000x128_S8000x128_0_0 : ∀ a, (![0, 0] : Fin 2 → Nat) a + S8000x128.size a ≤ S8000x128.size a
  h_S8000x128 : 0 < S8000x128.numel
  shapeCasts_S800000x128_S1600000x64 : S800000x128.ShapeCasts S1600000x64
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  dot_S8000x256_S256x128_S8000x128_1_0_0_1_n_n_wf : DotDims.WF S8000x256 S256x128 S8000x128 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x256.size a ≤ S800000x256.size a
  hwx0_0 : ∀ i : grid0.Coords, EltTy.bits .f32 = 32 ∨ (Rect.block (s := S800000x256) S8000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x128.size a ≤ S800000x128.size a
  hwx0_3 : ∀ i : grid0.Coords, EltTy.bits .f32 = 32 ∨ (Rect.block (s := S800000x128) S8000x128.size (cc0_transform_3 i) (hinb0_3 i)).WholeWords (EltTy.packing .f32)

variable [Facts₀]

def dot_S8000x256_S256x128_S8000x128_1_0_0_1_n_n : DotDims S8000x256 S256x128 S8000x128 where
  lhsContracting := [1]
  rhsContracting := [0]
  lhsNonContracting := [0]
  rhsNonContracting := [1]
  lhsBatch := []
  rhsBatch := []
  wf := dot_S8000x256_S256x128_S8000x128_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_v0) S8000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S8000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x64 : Shape := ⟨2, ![100000, 64]⟩
abbrev S1600000x128 : Shape := ⟨2, ![1600000, 128]⟩
abbrev S1600000 : Shape := ⟨1, ![1600000]⟩
abbrev S64x128 : Shape := ⟨2, ![64, 128]⟩
abbrev S64 : Shape := ⟨1, ![64]⟩
abbrev S1600000x64 : Shape := ⟨2, ![1600000, 64]⟩
abbrev S1x64 : Shape := ⟨2, ![1, 64]⟩
abbrev S_ : Shape := ⟨0, ![]⟩
abbrev S1600000x1 : Shape := ⟨2, ![1600000, 1]⟩

abbrev nBuf : Space → Nat
  | .hbm => 24
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000x128, .f32⟩
  | .hbm, ⟨2, _⟩ => ⟨S1600000, .i32⟩
  | .hbm, ⟨3, _⟩ => ⟨S1600000, .i32⟩
  | .hbm, ⟨4, _⟩ => ⟨S64x128, .f32⟩
  | .hbm, ⟨5, _⟩ => ⟨S64, .f32⟩
  | .hbm, ⟨6, _⟩ => ⟨S1600000x64, .f32⟩
  | .hbm, ⟨7, _⟩ => ⟨S1x64, .f32⟩
  | .hbm, ⟨8, _⟩ => ⟨S1600000x64, .f32⟩
  | .hbm, ⟨9, _⟩ => ⟨S1600000x64, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x64, .f32⟩
  | .hbm, ⟨19, _⟩ => ⟨S1600000x64, .f32⟩
  | .hbm, ⟨20, _⟩ => ⟨S_, .f32⟩
  | .hbm, ⟨21, _⟩ => ⟨S100000x64, .f32⟩
  | .hbm, ⟨22, _⟩ => ⟨S1600000x1, .i32⟩
  | .hbm, ⟨23, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  dot_S1600000x128_S64x128_S1600000x64_1_1_0_0_n_n_wf : DotDims.WF S1600000x128 S64x128 S1600000x64 [1] [1] [0] [0] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S1600000x128_S64x128_S1600000x64_1_1_0_0_n_n : DotDims S1600000x128 S64x128 S1600000x64 where
  lhsContracting := [1]
  rhsContracting := [1]
  lhsNonContracting := [0]
  rhsNonContracting := [0]
  lhsBatch := []
  rhsBatch := []
  wf := dot_S1600000x128_S64x128_S1600000x64_1_1_0_0_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.Packed.lean ====
/-
  The radial filter of one edge, and the packed form a kernel may compute it in.

  For an edge `e` and an output feature `d` the filter is
      filt[e, d] = Σ_{k < 128} basis[e, k] · W[d, k] + b[d].
  A lane-dense kernel puts TWO consecutive edges on one row: row `p` holds edges `2p` and `2p + 1`, 256 basis
  entries against a 256 × 128 matrix, 128 results. Written over any three arrays of those shapes the packed row is
      packed[p, c] = Σ_{k < 256} A[p, k] · M[k, c] + β[0, c].
  When `M` is block diagonal — `Wᵀ` in its upper-left and lower-right 128 × 64 corners, zero elsewhere — one half of
  that sum is a sum of products with zero, and the other half is the filter's sum. The two lemmas on sums below say
  this for an arbitrary summand: a 256-term sum that vanishes on its upper (lower) 128 terms is the sum of its lower
  (upper) 128 terms. On the extended reals `x · 0 = 0` for every `x`, the infinities included, so nothing here asks an
  entry to be finite.
-/
import Idealize.ShloMosaic.PureOps.Ideal
import Idealize.ShloMosaic.Lib.ValueIdx

noncomputable section

namespace Cert.EdgeFilter

open Idealize.ShloMosaic Idealize.ShloMosaic.ValueIdx
open scoped BigOperators

/-- The filter, edge by edge and feature by feature: the basis row of the edge against row `d` of `W`, plus `b[d]`. -/
def filt (basis : FVec Ideal ⟨2, ![1600000, 128]⟩ .f32) (W : FVec Ideal ⟨2, ![64, 128]⟩ .f32)
    (b : FVec Ideal ⟨1, ![64]⟩ .f32) : FVec Ideal ⟨2, ![1600000, 64]⟩ .f32 :=
  fun i => (∑ k : Fin 128, basis (ix2 (i 0) k) * W (ix2 (i 1) k)) + b (ix1 (i 1))

/-- A packed row: 256 entries of `A`'s row `p` against column `c` of `M`, plus the one bias row `β`. -/
def packed (A : FVec Ideal ⟨2, ![800000, 256]⟩ .f32) (M : FVec Ideal ⟨2, ![256, 128]⟩ .f32)
    (β : FVec Ideal ⟨2, ![1, 128]⟩ .f32) : FVec Ideal ⟨2, ![800000, 128]⟩ .f32 :=
  fun i => (∑ k : Fin 256, A (ix2 (i 0) k) * M (ix2 k (i 1))) + β (ix2 0 (i 1))

/-- A sum of 256 terms whose upper 128 vanish is the sum of its lower 128. -/
theorem sum_lower (f : Fin 256 → EReal) (g : Fin 128 → EReal)
    (hlo : ∀ k : Fin 128, f (Fin.castAdd 128 k) = g k) (hhi : ∀ k : Fin 128, f (Fin.natAdd 128 k) = 0) :
    ∑ k : Fin 256, f k = ∑ k : Fin 128, g k := by
  have h := Fin.sum_univ_add (M := EReal) (a := 128) (b := 128) f
  rw [h, Finset.sum_congr rfl (fun k _ => hlo k), Finset.sum_congr rfl (fun k _ => hhi k), Finset.sum_const_zero, add_zero]

/-- A sum of 256 terms whose lower 128 vanish is the sum of its upper 128. -/
theorem sum_upper (f : Fin 256 → EReal) (g : Fin 128 → EReal)
    (hlo : ∀ k : Fin 128, f (Fin.castAdd 128 k) = 0) (hhi : ∀ k : Fin 128, f (Fin.natAdd 128 k) = g k) :
    ∑ k : Fin 256, f k = ∑ k : Fin 128, g k := by
  have h := Fin.sum_univ_add (M := EReal) (a := 128) (b := 128) f
  rw [h, Finset.sum_congr rfl (fun k _ => hlo k), Finset.sum_congr rfl (fun k _ => hhi k), Finset.sum_const_zero, zero_add]

end Cert.EdgeFilter

end
-- ==== Proof.Payload.lean ====
/-
  What the kernel body stores, read at one entry of the block.

  The body loads a block of 8000 packed rows (8000 × 256), the whole 256 × 128 matrix and the one 1 × 128 bias row,
  multiplies the first two into a zero accumulator and adds the bias row to every row of the product. Read at the
  ideal values — where narrowing to sixteen bits is the identity and the matrix product is a plain sum over the
  contracted index — entry `(r, c)` of what it stores is
      Σ_{k < 256} rows[r, k] · matrix[k, c] + bias[0, c].
-/
import proofs.«175159_j86861418594987_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx
open scoped BigOperators

/-- The left operand's index at result entry `j` and contraction position `q`: row `j 0`, column `q`. -/
theorem lhs_row (j : S8000x128.Idx) (q : dot_S8000x256_S256x128_S8000x128_1_0_0_1_n_n.contr.Idx) :
    (dot_S8000x256_S256x128_S8000x128_1_0_0_1_n_n.lhsIdx j q 0).val = (j 0).val := by
  unfold DotDims.lhsIdx
  rw [dif_neg (show ¬(0 : Fin S8000x256.rank) ∈ dot_S8000x256_S256x128_S8000x128_1_0_0_1_n_n.lhsBatch by decide),
    dif_pos (show (0 : Fin S8000x256.rank) ∈ dot_S8000x256_S256x128_S8000x128_1_0_0_1_n_n.lhsNonContracting by decide)]
  rfl
theorem lhs_col (j : S8000x128.Idx) (q : dot_S8000x256_S256x128_S8000x128_1_0_0_1_n_n.contr.Idx) :
    (dot_S8000x256_S256x128_S8000x128_1_0_0_1_n_n.lhsIdx j q 1).val = (q ⟨0, by decide⟩).val :=
  dot_S8000x256_S256x128_S8000x128_1_0_0_1_n_n.lhsIdx_val_of_single rfl j q
/-- The right operand's: row `q`, column `j 1`. -/
theorem rhs_row (j : S8000x128.Idx) (q : dot_S8000x256_S256x128_S8000x128_1_0_0_1_n_n.contr.Idx) :
    (dot_S8000x256_S256x128_S8000x128_1_0_0_1_n_n.rhsIdx j q 0).val = (q ⟨0, by decide⟩).val :=
  dot_S8000x256_S256x128_S8000x128_1_0_0_1_n_n.rhsIdx_val_of_single rfl j q
theorem rhs_col (j : S8000x128.Idx) (q : dot_S8000x256_S256x128_S8000x128_1_0_0_1_n_n.contr.Idx) :
    (dot_S8000x256_S256x128_S8000x128_1_0_0_1_n_n.rhsIdx j q 1).val = (j 1).val := by
  unfold DotDims.rhsIdx
  rw [dif_neg (show ¬(1 : Fin S256x128.rank) ∈ dot_S8000x256_S256x128_S8000x128_1_0_0_1_n_n.rhsBatch by decide),
    dif_pos (show (1 : Fin S256x128.rank) ∈ dot_S8000x256_S256x128_S8000x128_1_0_0_1_n_n.rhsNonContracting by decide)]
  rfl

/-- The product of the block of rows with the matrix, into zero, at entry `(r, c)`: the sum over the 256 columns. -/
theorem product_apply (x0 : FVec Ideal S8000x256 .bf16) (x1 : FVec Ideal S256x128 .bf16) (r : Fin 8000) (c : Fin 128) :
    matmul dot_S8000x256_S256x128_S8000x128_1_0_0_1_n_n none x0 x1 (constant (F := Ideal) S8000x128 .f32 0x00000000#32) (ix2 r c)
      = ∑ k : Fin 256, x0 (ix2 r k) * x1 (ix2 k c) := by
  simp only [matmul]
  rw [Ideal.matmul_constant_zero_apply, ← Equiv.sum_comp (contrEquiv1 dot_S8000x256_S256x128_S8000x128_1_0_0_1_n_n 256 rfl rfl).symm]
  refine Finset.sum_congr rfl fun k _ => ?_
  have hk := contrEquiv1_symm_val dot_S8000x256_S256x128_S8000x128_1_0_0_1_n_n 256 rfl rfl k
  have el : dot_S8000x256_S256x128_S8000x128_1_0_0_1_n_n.lhsIdx (ix2 r c) ((contrEquiv1 dot_S8000x256_S256x128_S8000x128_1_0_0_1_n_n 256 rfl rfl).symm k) = ix2 r k :=
    funext fun a => Fin.ext (by
      match a with
      | ⟨0, _⟩ => exact lhs_row _ _
      | ⟨1, _⟩ => exact (lhs_col _ _).trans hk)
  have er : dot_S8000x256_S256x128_S8000x128_1_0_0_1_n_n.rhsIdx (ix2 r c) ((contrEquiv1 dot_S8000x256_S256x128_S8000x128_1_0_0_1_n_n 256 rfl rfl).symm k) = ix2 k c :=
    funext fun a => Fin.ext (by
      match a with
      | ⟨0, _⟩ => exact (rhs_row _ _).trans hk
      | ⟨1, _⟩ => exact rhs_col _ _)
  rw [el, er]

/-- The bias row spread over the 8000 rows, at entry `(r, c)`: the row's entry `c`. -/
theorem bias_apply (x2 : FVec Ideal S1x128 .f32) (r : Fin 8000) (c : Fin 128) :
    broadcastTo S8000x128 x2 broadcasts_S1x128_S8000x128 (ix2 r c) = x2 (ix2 0 c) :=
  broadcastTo_apply x2 broadcasts_S1x128_S8000x128 (ix2 r c) (ix2 0 c) (fun a => match a with
    | ⟨0, _⟩ => by show 0 = if (1 : Nat) = 1 then 0 else _; rw [if_pos rfl]
    | ⟨1, _⟩ => by show c.val = if (128 : Nat) = 1 then 0 else c.val; rw [if_neg (by decide)])

/-- THE PAYLOAD AT AN ENTRY: the 256-term sum of row `r` against column `c`, plus the bias row's entry `c`. -/
theorem pay_apply (x0 : Vec Ideal S8000x256 .f32) (x1 : Vec Ideal S256x128 .f32) (x2 : Vec Ideal S1x128 .f32)
    (r : Fin 8000) (c : Fin 128) :
    k0_pay1 (F := Ideal) x0 x1 x2 (ix2 r c) = (∑ k : Fin 256, x0 (ix2 r k) * x1 (ix2 k c)) + x2 (ix2 0 c) := by
  unfold k0_pay1
  simp only [shapeCast_self]
  rw [addf_apply, product_apply, bias_apply]
  rfl

end Cert.KernelIdeal.Payload

end
-- ==== Proof.Rows.lean ====
/-
  From the block one grid point writes back to the whole packed array.

  The grid has 100 points. Point `t` is handed rows `8000·t … 8000·t + 7999` of the packed basis (all 256 columns), the
  whole 256 × 128 matrix and the whole 1 × 128 bias row, and writes back rows `8000·t … 8000·t + 7999` of the result (all
  128 columns). So entry `(r, c)` of its block is entry `(8000·t + r, c)` of ONE array — `packed` of the three arrays as the
  grid finds them — and since the 100 row ranges tile the 800000 rows, that array is what the result holds after the
  last point.
-/
import proofs.«175159_j86861418594987_2_alg».proof.Proof.Gen.KernelIdeal.Frame
import proofs.«175159_j86861418594987_2_alg».proof.Proof.Packed
import proofs.«175159_j86861418594987_2_alg».proof.Proof.Payload
import Idealize.ShloMosaic.Lib.Pipeline.Value
import Idealize.ShloMosaic.Lib.ValueIdx

set_option maxRecDepth 16384

noncomputable section

namespace Cert.KernelIdeal.Rows

open Cert.KernelIdeal Cert.KernelIdeal.Gen Idealize.ShloMosaic Idealize.ShloMosaic.TcCoe Idealize.ShloMosaic.ValueIdx
open Idealize.SL.Sem Cert.EdgeFilter
open scoped BigOperators

variable (m : (ℓ : Loc nD τ sig) → Buf (Elt Ideal) ℓ)

theorem zero_offsets : (![0, 0] : Fin 2 → Nat) = fun _ => 0 := funext fun a => by fin_cases a <;> rfl

/-- One entry of a block is one entry of the packed array: if row `y 0` of the loaded rows is row `i 0` of `A`, the loaded
    matrix is `M` and the loaded bias row is `β`, then what the body stores at `y` is `packed A M β` at `i` (same column). -/
theorem block_entry (A : FVec Ideal S800000x256 .f32) (M : FVec Ideal S256x128 .f32) (β : FVec Ideal S1x128 .f32)
    (x0 : Vec Ideal S8000x256 .f32) (x1 : Vec Ideal S256x128 .f32) (x2 : Vec Ideal S1x128 .f32)
    (y : S8000x128.Idx) (i : S800000x128.Idx) (r : Fin 8000) (q : Fin 128)
    (hr : (y 0).val = r.val) (hq : (y 1).val = q.val) (hcol : (i 1).val = q.val)
    (h0 : ∀ k : Fin 256, x0 (ix2 r k) = A (ix2 (i 0) k))
    (h1 : ∀ (k : Fin 256) (c : Fin 128), x1 (ix2 k c) = M (ix2 k c))
    (h2 : ∀ c : Fin 128, x2 (ix2 0 c) = β (ix2 0 c)) :
    k0_pay1 (F := Ideal) x0 x1 x2 y = packed A M β i := by
  have hy : y = ix2 r q := funext fun a => Fin.ext (by
    match a with
    | ⟨0, _⟩ => exact hr
    | ⟨1, _⟩ => exact hq)
  have hc : i 1 = q := Fin.ext hcol
  rw [hy, Payload.pay_apply]
  unfold packed
  rw [hc, h2]
  exact congrArg (· + β (ix2 0 q)) (Finset.sum_congr rfl fun k _ => by rw [h0 k, h1 k q])

/-- The printed index maps, decided over the 100 points: the rows handed to point `t` and the rows it writes back are
    both block `t` of their arrays, all columns; the matrix and the bias row are handed whole. -/
theorem block_indices : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 99 ∧ win0_3.index t (1 : Fin 2) = 0 :=
  (by decide +kernel : ∀ t : Fin grid0.N, _)

/-- Every one of the 100 row blocks of the result is SOME point's. -/
theorem block_onto : ∀ q : Fin 100, ∃ t : Fin cfg0.N, win0_3.index t = ![q.val, 0] :=
  (by decide +kernel : ∀ q : Fin 100, ∃ t : Fin grid0.N, win0_3.index t = ![q.val, 0])

theorem flushed_eq (c : Dev nD) (t : Fin cfg0.N) :
    (dats m 0 c).flushed 3 t = ((cfg0.win 3).blk t).view.read (Elt Ideal)
      (packed (V m c main_v0) (V m c main_v5) (V m c main_v7)) := by
  show (cfg0.win 3).cut (grid0.coords t) ((dats m 0 c).after 3 t) = _
  rw [after0_3]
  unfold out0_3
  rw [View.canon_unit_zero zero_offsets]
  simp only [View.ld_unit_zero (S := S8000x256) zero_offsets, View.ld_unit_zero (S := S256x128) zero_offsets,
    View.ld_unit_zero (S := S1x128) zero_offsets]
  obtain ⟨e00, e01, e10, e11, e20, e21, e30, e31⟩ := block_indices t
  funext j
  show k0_pay1 (F := Ideal) (iblk m c 0 t) (iblk m c 1 t) (iblk m c 2 t) j
    = packed (V m c main_v0) (V m c main_v5) (V m c main_v7) (((cfg0.win 3).blk t).view.emb j)
  refine block_entry _ _ _ _ _ _ j _ ⟨(j 0).val, (j 0).isLt⟩ ⟨(j 1).val, (j 1).isLt⟩ rfl rfl ?_ ?_ ?_ ?_
  · show win0_3.index t (1 : Fin 2) * 128 + 1 * (j 1).val = (j 1).val
    omega
  · intro k
    show V m c main_v0 (((cfg0.win 0).blk t).view.emb (ix2 ⟨(j 0).val, (j 0).isLt⟩ k)) = V m c main_v0 (ix2 ((((cfg0.win 3).blk t).view.emb j) 0) k)
    refine congrArg (V m c main_v0) (funext fun a => Fin.ext ?_)
    match a with
    | ⟨0, _⟩ => show win0_0.index t (0 : Fin 2) * 8000 + 1 * (j 0).val = win0_3.index t (0 : Fin 2) * 8000 + 1 * (j 0).val; omega
    | ⟨1, _⟩ => show win0_0.index t (1 : Fin 2) * 256 + 1 * k.val = k.val; omega
  · intro k q
    show V m c main_v5 (((cfg0.win 1).blk t).view.emb (ix2 k q)) = V m c main_v5 (ix2 k q)
    refine congrArg (V m c main_v5) (funext fun a => Fin.ext ?_)
    match a with
    | ⟨0, _⟩ => show win0_1.index t (0 : Fin 2) * 256 + 1 * k.val = k.val; omega
    | ⟨1, _⟩ => show win0_1.index t (1 : Fin 2) * 128 + 1 * q.val = q.val; omega
  · intro q
    show V m c main_v7 (((cfg0.win 2).blk t).view.emb (ix2 0 q)) = V m c main_v7 (ix2 0 q)
    refine congrArg (V m c main_v7) (funext fun a => Fin.ext ?_)
    match a with
    | ⟨0, _⟩ => show win0_2.index t (0 : Fin 2) * 1 + 1 * 0 = 0; omega
    | ⟨1, _⟩ => show win0_2.index t (1 : Fin 2) * 128 + 1 * q.val = q.val; omega

/-- An entry of the result is in point `t`'s block iff each coordinate is in the block's range on its axis. -/
theorem mem_block (t : Fin cfg0.N) (i : S800000x128.Idx) :
    i ∈ ((cfg0.win 3).blk t).view.set ↔ ∀ a : Fin 2, win0_3.index t a * S8000x128.size a ≤ (i a).val ∧ (i a).val < win0_3.index t a * S8000x128.size a + S8000x128.size a := by
  show i ∈ ((View.whole main_v8).slice (win0_3.rect t)).set ↔ _
  rw [View.set_slice_whole, Rect.mem_set_unit]
  exact Iff.rfl

/-- Row `ρ` of the result is written back by point `ρ / 8000`: the 100 row blocks tile the 800000 rows. -/
theorem covered (i : S800000x128.Idx) :
    ∃ t : Fin cfg0.N, (cfg0.win 3).flush t = true ∧ i ∈ ((cfg0.win 3).blk t).view.set := by
  have hi0 : (i 0).val < 800000 := (i 0).isLt
  have hi1 : (i 1).val < 128 := (i 1).isLt
  obtain ⟨t, ht⟩ := block_onto ⟨(i 0).val / 8000, by omega⟩
  have q0 : win0_3.index t (0 : Fin 2) = (i 0).val / 8000 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 8000 ≤ (i 0).val ∧ (i 0).val < win0_3.index t (0 : Fin 2) * 8000 + 8000; omega
  | ⟨1, _⟩ => show win0_3.index t (1 : Fin 2) * 128 ≤ (i 1).val ∧ (i 1).val < win0_3.index t (1 : Fin 2) * 128 + 128; omega

/-- THE RESULT ARRAY AFTER THE LAST POINT is the packed array of the three arrays as the grid finds them. -/
theorem final (c : Dev nD) :
    (dats m 0 c).arrAt 3 cfg0.N = packed (V m c main_v0) (V m c main_v5) (V m c main_v7) :=
  (dats m 0 c).arrAt_eq_of_cover 3 _ (fun t _ => flushed_eq m c t) covered

end Cert.KernelIdeal.Rows

end
-- ==== Proof.Operands.lean ====
/-
  The three arrays the grid is run on, as functions of the program's arguments, each read at one entry.

  Before the grid the program builds, on the host:
    * the PAIRED ROWS: the 1600000 × 128 basis re-read row-major as 800000 × 256, so that row `p` is edge `2p`'s 128
      entries followed by edge `2p + 1`'s — entry `(p, k)` is the basis entry at the same row-major position;
    * the BLOCK-DIAGONAL MATRIX, 256 × 128: `Wᵀ` (128 × 64) beside a zero block on top, a zero block beside `Wᵀ` below
      — entry `(k, c)` is `W[c, k]` for `k < 128, c < 64`, is `W[c − 64, k − 128]` for `k ≥ 128, c ≥ 64`, and is `0` in
      the two off-diagonal corners;
    * the DOUBLED BIAS, 1 × 128: `b` followed by `b` — entry `(0, c)` is `b[c]` for `c < 64` and `b[c − 64]` after.
  Right after the grid the 800000 × 128 result is re-read row-major as 1600000 × 64, one row per edge again: entry
  `(e, d)` is the packed entry at the same row-major position, `(e / 2, 64·(e mod 2) + d)`.
-/
import proofs.«175159_j86861418594987_2_alg».proof.Proof.Gen.KernelIdeal.Frame
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.Operands

open Cert.KernelIdeal Cert.KernelIdeal.Gen Idealize.ShloMosaic Idealize.ShloMosaic.TcCoe Idealize.ShloMosaic.ValueIdx
open Idealize.SL.Sem Idealize.ShloMosaic.StableHlo

/-! ## The three arrays -/

/-- Two consecutive edges per row. -/
def pairRows (basis : FVec Ideal S1600000x128 .f32) : FVec Ideal S800000x256 .f32 :=
  shapeCast S800000x256 basis shapeCasts_S1600000x128_S800000x256

/-- The 128 × 64 block of zeros. -/
def zeroBlock : FVec Ideal S128x64 .f32 :=
  broadcastInDim S128x64 ![] bcast_S_S128x64 (constant (F := Ideal) S_ .f32 0x00000000#32)

/-- `Wᵀ`, 128 × 64. -/
def Wt (W : FVec Ideal S64x128 .f32) : FVec Ideal S128x64 .f32 :=
  transpose S128x64 [1, 0] W transposes_S64x128_S128x64_1_0

/-- `[[Wᵀ, 0], [0, Wᵀ]]`. -/
def blockDiag (W : FVec Ideal S64x128 .f32) : FVec Ideal S256x128 .f32 :=
  concatenate S256x128 0
    [⟨S128x128, concatenate S128x128 1 [⟨S128x64, Wt W⟩, ⟨S128x64, zeroBlock⟩] concatenates_S128x64_S128x64_S128x128_d1⟩,
      ⟨S128x128, concatenate S128x128 1 [⟨S128x64, zeroBlock⟩, ⟨S128x64, Wt W⟩] concatenates_S128x64_S128x64_S128x128_d1⟩]
    concatenates_S128x128_S128x128_S256x128_d0

/-- `b` twice, as one row. -/
def biasTwice (b : FVec Ideal S64 .f32) : FVec Ideal S1x128 .f32 :=
  shapeCast S1x128 (concatenate S128 0 [⟨S64, b⟩, ⟨S64, b⟩] concatenates_S64_S64_S128_d0) shapeCasts_S128_S1x128

/-! ## They are what the grid finds in its three input arrays -/

variable (m : (ℓ : Loc nD τ sig) → Buf (Elt Ideal) ℓ)

theorem found_rows (c : Dev nD) :
    (V m c main_v0 : S800000x256.Idx → EReal) = pairRows (m ((c : Thread nD τ).loc main_arg1)) := by
  show StableHlo.after hostOps0 (fun b => m (c, b)) (Proc.devRef .tc main_v0) = _
  after_results
  rfl

theorem found_matrix (c : Dev nD) :
    (V m c main_v5 : S256x128.Idx → EReal) = blockDiag (m ((c : Thread nD τ).loc main_arg4)) := by
  show StableHlo.after hostOps0 (fun b => m (c, b)) (Proc.devRef .tc main_v5) = _
  after_results
  rfl

theorem found_bias (c : Dev nD) :
    (V m c main_v7 : S1x128.Idx → EReal) = biasTwice (m ((c : Thread nD τ).loc main_arg5)) := by
  show StableHlo.after hostOps0 (fun b => m (c, b)) (Proc.devRef .tc main_v7) = _
  after_results
  rfl

/-! ## Each read at an entry -/

/-- Entry `(p, k)` of the paired rows is the basis entry `(e, k')` at the same row-major position. -/
theorem pairRows_apply (basis : FVec Ideal S1600000x128 .f32) (p : Fin 800000) (k : Fin 256) (e : Fin 1600000) (k' : Fin 128)
    (h : e.val * 128 + k'.val = p.val * 256 + k.val) : pairRows basis (ix2 p k) = basis (ix2 e k') := by
  unfold pairRows
  refine shapeCast_apply basis shapeCasts_S1600000x128_S800000x256 (ix2 p k) (ix2 e k') ?_
  rw [Shape.rowMajor_val_two, Shape.rowMajor_val_two]
  exact h

/-- Every entry of the zero block is `0`. -/
theorem zeroBlock_apply (j : S128x64.Idx) : zeroBlock j = 0 := by
  unfold zeroBlock
  rw [broadcastInDim_apply _ bcast_S_S128x64 _ j ix0 (fun a => a.elim0), constant_apply, Ideal.ofBits_zero_f32]

/-- Entry `(k, d)` of `Wᵀ` is `W[d, k]`. -/
theorem Wt_apply (W : FVec Ideal S64x128 .f32) (k : Fin 128) (d : Fin 64) : Wt W (ix2 k d) = W (ix2 d k) := by
  unfold Wt
  exact transpose_apply [1, 0] W transposes_S64x128_S128x64_1_0 (ix2 k d) (ix2 d k) (fun b => match b with
    | ⟨0, _⟩ => rfl
    | ⟨1, _⟩ => rfl)

/-- The upper-left corner of the block-diagonal matrix is `Wᵀ`. -/
theorem blockDiag_upper_left (W : FVec Ideal S64x128 .f32) (k : Fin 256) (c : Fin 128) (k' : Fin 128) (d : Fin 64)
    (hk : k.val = k'.val) (hc : c.val = d.val) : blockDiag W (ix2 k c) = W (ix2 d k') := by
  unfold blockDiag
  rw [concatenate_pair_apply_left (t := S256x128) (s₁ := S128x128) (s₂ := S128x128) (0 : Fin 2) _ _ concatenates_S128x128_S128x128_S256x128_d0 (ix2 k c) rfl (ix2 k' c)
      (fun b => match b with
        | ⟨0, _⟩ => hk.symm
        | ⟨1, _⟩ => rfl),
    concatenate_pair_apply_left (t := S128x128) (s₁ := S128x64) (s₂ := S128x64) (1 : Fin 2) _ _ concatenates_S128x64_S128x64_S128x128_d1 (ix2 k' c) rfl (ix2 k' d)
      (fun b => match b with
        | ⟨0, _⟩ => rfl
        | ⟨1, _⟩ => hc.symm),
    Wt_apply]

/-- Its upper-right corner is zero. -/
theorem blockDiag_upper_right (W : FVec Ideal S64x128 .f32) (k : Fin 256) (c : Fin 128)
    (hk : k.val < 128) (hc : 64 ≤ c.val) : blockDiag W (ix2 k c) = 0 := by
  unfold blockDiag
  rw [concatenate_pair_apply_left (t := S256x128) (s₁ := S128x128) (s₂ := S128x128) (0 : Fin 2) _ _ concatenates_S128x128_S128x128_S256x128_d0 (ix2 k c) rfl (ix2 (⟨k.val, hk⟩ : Fin 128) c)
      (fun b => match b with
        | ⟨0, _⟩ => rfl
        | ⟨1, _⟩ => rfl),
    concatenate_pair_apply_right (t := S128x128) (s₁ := S128x64) (s₂ := S128x64) (1 : Fin 2) _ _ concatenates_S128x64_S128x64_S128x128_d1 (ix2 (⟨k.val, hk⟩ : Fin 128) c) rfl rfl
      (ix2 (⟨k.val, hk⟩ : Fin 128) (⟨c.val - 64, by have := c.isLt; omega⟩ : Fin 64))
      (fun b => match b with
        | ⟨0, _⟩ => fun _ => rfl
        | ⟨1, _⟩ => fun h => absurd rfl h)
      (by show c.val - 64 + 64 = c.val; omega),
    zeroBlock_apply]

/-- Its lower-left corner is zero. -/
theorem blockDiag_lower_left (W : FVec Ideal S64x128 .f32) (k : Fin 256) (c : Fin 128)
    (hk : 128 ≤ k.val) (hc : c.val < 64) : blockDiag W (ix2 k c) = 0 := by
  unfold blockDiag
  rw [concatenate_pair_apply_right (t := S256x128) (s₁ := S128x128) (s₂ := S128x128) (0 : Fin 2) _ _ concatenates_S128x128_S128x128_S256x128_d0 (ix2 k c) rfl rfl
      (ix2 (⟨k.val - 128, by have := k.isLt; omega⟩ : Fin 128) c)
      (fun b => match b with
        | ⟨0, _⟩ => fun h => absurd rfl h
        | ⟨1, _⟩ => fun _ => rfl)
      (by show k.val - 128 + 128 = k.val; omega),
    concatenate_pair_apply_left (t := S128x128) (s₁ := S128x64) (s₂ := S128x64) (1 : Fin 2) _ _ concatenates_S128x64_S128x64_S128x128_d1
      (ix2 (⟨k.val - 128, by have := k.isLt; omega⟩ : Fin 128) c) rfl
      (ix2 (⟨k.val - 128, by have := k.isLt; omega⟩ : Fin 128) (⟨c.val, hc⟩ : Fin 64))
      (fun b => match b with
        | ⟨0, _⟩ => rfl
        | ⟨1, _⟩ => rfl),
    zeroBlock_apply]

/-- Its lower-right corner is `Wᵀ` again. -/
theorem blockDiag_lower_right (W : FVec Ideal S64x128 .f32) (k : Fin 256) (c : Fin 128) (k' : Fin 128) (d : Fin 64)
    (hk : k.val = 128 + k'.val) (hc : c.val = 64 + d.val) : blockDiag W (ix2 k c) = W (ix2 d k') := by
  unfold blockDiag
  rw [concatenate_pair_apply_right (t := S256x128) (s₁ := S128x128) (s₂ := S128x128) (0 : Fin 2) _ _ concatenates_S128x128_S128x128_S256x128_d0 (ix2 k c) rfl rfl (ix2 k' c)
      (fun b => match b with
        | ⟨0, _⟩ => fun h => absurd rfl h
        | ⟨1, _⟩ => fun _ => rfl)
      (by show k'.val + 128 = k.val; omega),
    concatenate_pair_apply_right (t := S128x128) (s₁ := S128x64) (s₂ := S128x64) (1 : Fin 2) _ _ concatenates_S128x64_S128x64_S128x128_d1 (ix2 k' c) rfl rfl (ix2 k' d)
      (fun b => match b with
        | ⟨0, _⟩ => fun _ => rfl
        | ⟨1, _⟩ => fun h => absurd rfl h)
      (by show d.val + 64 = c.val; omega),
    Wt_apply]

/-- Entry `(0, c)` of the doubled bias is `b[d]` where `c` is `d` or `64 + d`. -/
theorem biasTwice_apply (b : FVec Ideal S64 .f32) (c : Fin 128) (d : Fin 64) (h : c.val = d.val ∨ c.val = 64 + d.val) :
    biasTwice b (ix2 0 c) = b (ix1 d) := by
  unfold biasTwice
  rw [shapeCast_apply _ shapeCasts_S128_S1x128 (ix2 0 c) (ix1 c) (by
    rw [Shape.rowMajor_val_one, Shape.rowMajor_val_two]; show c.val = 0 * 128 + c.val; omega)]
  rcases h with h | h
  · exact concatenate_pair_apply_left (t := S128) (s₁ := S64) (s₂ := S64) (0 : Fin 1) _ _ concatenates_S64_S64_S128_d0 (ix1 c) rfl (ix1 d)
      (fun a => match a with | ⟨0, _⟩ => h.symm)
  · exact concatenate_pair_apply_right (t := S128) (s₁ := S64) (s₂ := S64) (0 : Fin 1) _ _ concatenates_S64_S64_S128_d0 (ix1 c) rfl rfl (ix1 d)
      (fun a => match a with | ⟨0, _⟩ => fun hne => absurd rfl hne)
      (by show d.val + 64 = c.val; omega)

/-! ## After the grid: one row per edge again -/

/-- The packed result re-read row-major as 1600000 × 64. -/
def unpack (P : FVec Ideal S800000x128 .f32) : FVec Ideal S1600000x64 .f32 :=
  shapeCast S1600000x64 P shapeCasts_S800000x128_S1600000x64

/-- Entry `(e, d)` of it is the packed entry `(p, c)` at the same row-major position. -/
theorem unpack_apply (P : FVec Ideal S800000x128 .f32) (e : Fin 1600000) (d : Fin 64) (p : Fin 800000) (c : Fin 128)
    (h : p.val * 128 + c.val = e.val * 64 + d.val) : unpack P (ix2 e d) = P (ix2 p c) := by
  unfold unpack
  refine shapeCast_apply P shapeCasts_S800000x128_S1600000x64 (ix2 e d) (ix2 p c) ?_
  rw [Shape.rowMajor_val_two, Shape.rowMajor_val_two]
  exact h

end Cert.KernelIdeal.Operands

end
-- ==== Proof.Messages.lean ====
/-
  After the grid: messages along the edges, summed at their destination nodes — and the kernel program's whole run.

  Both programs end the same way. Given a per-edge filter `f` (1600000 × 64):
    * each edge's source node index is wrapped once (a negative index `s` reads node `s + 100000`) and row `src[e]` of `x` is
      gathered for edge `e`;
    * the message of edge `e` is that row times row `e` of `f`, entry by entry;
    * the messages are added, edge by edge, into row `dst[e]` of an array of zeros (100000 × 64).
  `aggregate x src dst f` is that one function. The kernel program applies it to the un-packed array the grid left; what
  the grid left is the packed product of the three operand arrays (the rows module), and those arrays are the paired
  rows, the block-diagonal matrix and the doubled bias of the arguments (the operands module). So the kernel program's
  result is `aggregate` of the un-packed packed product — stated here as its run.
-/
import proofs.«175159_j86861418594987_2_alg».proof.Proof.Gen.KernelIdeal.Frame
import proofs.«175159_j86861418594987_2_alg».proof.Proof.Rows
import proofs.«175159_j86861418594987_2_alg».proof.Proof.Operands
import Idealize.ShloMosaic.Lib.StableHlo.Run
import Idealize.ShloMosaic.Lib.Pipeline.Value

noncomputable section

namespace Cert.KernelIdeal.Messages

open Cert.KernelIdeal Cert.KernelIdeal.Gen Idealize.ShloMosaic Idealize.ShloMosaic.TcCoe
open Idealize.SL.Sem Idealize.ShloMosaic.StableHlo Cert.KernelIdeal.Operands Cert.EdgeFilter

/-- Gather the source rows, multiply by the filter, add into the destination rows of a zero array. -/
def aggregate (x : FVec Ideal S100000x64 .f32) (src dst : IVec S1600000 32) (f : FVec Ideal S1600000x64 .f32) :
    FVec Ideal S100000x64 .f32 :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst)
    (mulf
      (Host.gather gather_S100000x64_S1600000x1_S1600000x64_1_0_n_n_0_1_164 x
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src)))
      f)

variable (m : (ℓ : Loc nD τ sig) → Buf (Elt Ideal) ℓ) (ρ : Dev nD → PrngReg)

/-- The program's result buffer after the host lines that follow the grid: `aggregate` of the arguments and of the
    un-packed array the grid left. -/
theorem result_eq (c : Dev nD) :
    (Pipeline.afterTail₀ cfgs (dats m) 0 (V0 m) [hostOps1] c main_v20 : S100000x64.Idx → EReal)
      = aggregate (m ((c : Thread nD τ).loc main_arg0)) (m ((c : Thread nD τ).loc main_arg2)) (m ((c : Thread nD τ).loc main_arg3))
          (unpack ((dats m 0 c).arrAt 3 cfg0.N)) := by
  unfold Pipeline.afterTail₀
  generalize hR : aggregate _ _ _ _ = R
  show StableHlo.after hostOps1 _ (Proc.devRef .tc main_v20) = _
  after_results
  rw [Pipeline.withArrays_of_ne _ c (V0 m c) _ main_arg0 (by exact (by decide : ∀ w, Pipeline.arrRef spec0 w ≠ main_arg0)),
    Pipeline.withArrays_of_ne _ c (V0 m c) _ main_arg2 (by exact (by decide : ∀ w, Pipeline.arrRef spec0 w ≠ main_arg2)),
    Pipeline.withArrays_of_ne _ c (V0 m c) _ main_arg3 (by exact (by decide : ∀ w, Pipeline.arrRef spec0 w ≠ main_arg3)),
    Pipeline.withArrays_arr spec0 launch0.win.arr_inj c _ _ 3]
  rw [show V0 m c (Proc.devRef .tc main_arg0) = m ((c : Thread nD τ).loc main_arg0) from V_main_arg0 m c,
    show V0 m c (Proc.devRef .tc main_arg2) = m ((c : Thread nD τ).loc main_arg2) from V_main_arg2 m c,
    show V0 m c (Proc.devRef .tc main_arg3) = m ((c : Thread nD τ).loc main_arg3) from V_main_arg3 m c]
  rw [← hR]
  rfl

/-- THE KERNEL PROGRAM'S RUN, READ: every weakly fair execution terminates with the result at `aggregate` of the
    un-packed packed product of the paired rows, the block-diagonal matrix and the doubled bias, and with the six
    arguments as they were. -/
theorem run : θ_run defs (onTc (τ := τ) (main (F := Ideal))) ⟨m, fun _ => 0, ρ⟩ fun r => ∀ c : Dev nD,
      r.2.mem ((c.tc : Thread nD τ).loc main_v20)
        = aggregate (m ((c : Thread nD τ).loc main_arg0)) (m ((c : Thread nD τ).loc main_arg2)) (m ((c : Thread nD τ).loc main_arg3))
            (unpack (packed (pairRows (m ((c : Thread nD τ).loc main_arg1))) (blockDiag (m ((c : Thread nD τ).loc main_arg4)))
              (biasTwice (m ((c : Thread nD τ).loc main_arg5)))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v20 (Pipeline.mem_restRefs_of main_v20 (by decide) (by decide))).trans ((result_eq m c).trans (by
        rw [Rows.final, found_rows, found_matrix, found_bias])),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c))⟩)
    (run_main m ρ)

end Cert.KernelIdeal.Messages

end
-- ==== Proof.Unpacked.lean ====
/-
  Un-packing the packed product gives the filter.

  Take edge `e` and feature `d`, and let `p = e / 2`. The un-packed entry `(e, d)` is the packed entry `(p, c)` with
  `c = d` when `e` is even and `c = 64 + d` when `e` is odd, that is
      Σ_{k < 256} rows[p, k] · M[k, c] + β[0, c],
  where row `p` of the paired rows is edge `2p`'s 128 basis entries followed by edge `2p + 1`'s, `M` is the
  block-diagonal matrix and `β` the doubled bias.
    * `e` even: for `k < 128` the term is `basis[e, k] · W[d, k]` (upper-left corner), for `k ≥ 128` it is a product with
      the zero of the lower-left corner; `β[0, d] = b[d]`.
    * `e` odd: for `k < 128` the term is a product with the zero of the upper-right corner, for `k = 128 + k'` it is
      `basis[e, k'] · W[d, k']` (lower-right corner); `β[0, 64 + d] = b[d]`.
  Either way the 256-term sum is the filter's 128-term sum, since `x · 0 = 0` and adding zeros changes nothing.
-/
import proofs.«175159_j86861418594987_2_alg».proof.Proof.Operands
import proofs.«175159_j86861418594987_2_alg».proof.Proof.Packed

noncomputable section

namespace Cert.KernelIdeal.Unpacked

open Cert.KernelIdeal Idealize.ShloMosaic Idealize.ShloMosaic.ValueIdx Cert.KernelIdeal.Operands Cert.EdgeFilter
open scoped BigOperators

/-- THE LAW THAT JOINS THE TWO PROGRAMS: the packed product of the paired rows with the block-diagonal matrix, plus
    the doubled bias, re-read one row per edge, is the per-edge filter. -/
theorem unpack_packed (basis : FVec Ideal S1600000x128 .f32) (W : FVec Ideal S64x128 .f32) (b : FVec Ideal S64 .f32) :
    unpack (packed (pairRows basis) (blockDiag W) (biasTwice b)) = filt basis W b := by
  funext i
  obtain ⟨e, d, rfl⟩ : ∃ (e : Fin 1600000) (d : Fin 64), i = ix2 e d := ⟨i 0, i 1, eq_ix2 i⟩
  have he : e.val < 1600000 := e.isLt
  have hd : d.val < 64 := d.isLt
  obtain ⟨p, hp⟩ : ∃ p : Fin 800000, p.val = e.val / 2 := ⟨⟨e.val / 2, by omega⟩, rfl⟩
  show _ = (∑ k : Fin 128, basis (ix2 e k) * W (ix2 d k)) + b (ix1 d)
  rcases Nat.mod_two_eq_zero_or_one e.val with hs | hs
  · -- an even edge: the left half of its packed row
    obtain ⟨c, hc⟩ : ∃ c : Fin 128, c.val = d.val := ⟨⟨d.val, by omega⟩, rfl⟩
    rw [unpack_apply _ e d p c (by omega)]
    show (∑ k : Fin 256, pairRows basis (ix2 p k) * blockDiag W (ix2 k c)) + biasTwice b (ix2 0 c) = _
    have hsum : ∑ k : Fin 256, pairRows basis (ix2 p k) * blockDiag W (ix2 k c)
        = ∑ k : Fin 128, basis (ix2 e k) * W (ix2 d k) :=
      sum_lower _ _
        (fun k => by
          show pairRows basis (ix2 p (Fin.castAdd 128 k)) * blockDiag W (ix2 (Fin.castAdd 128 k) c) = _
          rw [pairRows_apply basis p (Fin.castAdd 128 k) e k (by show e.val * 128 + k.val = p.val * 256 + k.val; omega),
            blockDiag_upper_left W (Fin.castAdd 128 k) c k d rfl hc])
        (fun k => by
          show pairRows basis (ix2 p (Fin.natAdd 128 k)) * blockDiag W (ix2 (Fin.natAdd 128 k) c) = 0
          rw [blockDiag_lower_left W (Fin.natAdd 128 k) c (by show 128 ≤ 128 + k.val; omega) (by omega), mul_zero])
    rw [hsum, biasTwice_apply b c d (Or.inl hc)]
  · -- an odd edge: the right half
    obtain ⟨c, hc⟩ : ∃ c : Fin 128, c.val = 64 + d.val := ⟨⟨64 + d.val, by omega⟩, rfl⟩
    rw [unpack_apply _ e d p c (by omega)]
    show (∑ k : Fin 256, pairRows basis (ix2 p k) * blockDiag W (ix2 k c)) + biasTwice b (ix2 0 c) = _
    have hsum : ∑ k : Fin 256, pairRows basis (ix2 p k) * blockDiag W (ix2 k c)
        = ∑ k : Fin 128, basis (ix2 e k) * W (ix2 d k) :=
      sum_upper _ _
        (fun k => by
          show pairRows basis (ix2 p (Fin.castAdd 128 k)) * blockDiag W (ix2 (Fin.castAdd 128 k) c) = 0
          rw [blockDiag_upper_right W (Fin.castAdd 128 k) c (by show k.val < 128; exact k.isLt) (by omega), mul_zero])
        (fun k => by
          show pairRows basis (ix2 p (Fin.natAdd 128 k)) * blockDiag W (ix2 (Fin.natAdd 128 k) c) = _
          rw [pairRows_apply basis p (Fin.natAdd 128 k) e k (by show e.val * 128 + k.val = p.val * 256 + (128 + k.val); omega),
            blockDiag_lower_right W (Fin.natAdd 128 k) c k d rfl hc])
    rw [hsum, biasTwice_apply b c d (Or.inr hc)]

end Cert.KernelIdeal.Unpacked

end
-- ==== Proof.RefFilter.lean ====
/-
  The reference program computes the same filter, and ends with the same aggregation.

  The reference contracts the basis with `W` over their shared 128-axis (`einsum "er,dr->ed"`), adds `b` spread over
  the edges, and then gathers, multiplies and scatter-adds exactly as the kernel program does after its grid. Read
  at the ideal values its contraction at `(e, d)` is `Σ_{k < 128} basis[e, k] · W[d, k]`, so its filter stage is
  `filt`, and its result is `aggregate` of the arguments and `filt`.
-/
import proofs.«175159_j86861418594987_2_alg».proof.Proof.Gen.ReferenceIdeal.Read
import proofs.«175159_j86861418594987_2_alg».proof.Proof.Packed
import proofs.«175159_j86861418594987_2_alg».proof.Proof.Messages

noncomputable section

namespace Cert.ReferenceIdeal.RefValue

open Cert.ReferenceIdeal Cert.ReferenceIdeal.Gen Idealize.ShloMosaic Idealize.ShloMosaic.ValueIdx Cert.EdgeFilter
open Cert.ReferenceIdeal.Read
open scoped BigOperators

/-- The reference's filter stage (the contraction plus the spread bias) is the filter, entry by entry. -/
theorem filter_stage (basis : FVec Ideal S1600000x128 .f32) (W : FVec Ideal S64x128 .f32) (b : FVec Ideal S64 .f32) :
    val_main_v3 (F := Ideal) basis W b = filt basis W b := by
  funext i
  have el : ∀ k : Fin 128, lidx_main_v0 i k = ix2 (i 0) k := fun k =>
    funext fun a => Fin.ext (by match a with | ⟨0, _⟩ => rfl | ⟨1, _⟩ => rfl)
  have er : ∀ k : Fin 128, ridx_main_v0 i k = ix2 (i 1) k := fun k =>
    funext fun a => Fin.ext (by match a with | ⟨0, _⟩ => rfl | ⟨1, _⟩ => rfl)
  have eb : idx_main_v1 (idx_main_v2 i) = ix1 (i 1) :=
    funext fun a => Fin.ext (by match a with | ⟨0, _⟩ => rfl)
  rw [val_main_v3_apply, val_main_v0_apply, val_main_v2_apply, val_main_v1_apply]
  simp only [el, er, eb]
  rfl

/-- The reference's result term is the common aggregation of its arguments and the filter. -/
theorem result_eq (x : FVec Ideal S100000x64 .f32) (basis : FVec Ideal S1600000x128 .f32) (src dst : IVec S1600000 32)
    (W : FVec Ideal S64x128 .f32) (b : FVec Ideal S64 .f32) :
    val_main_v14 (F := Ideal) x basis src dst W b
      = Cert.KernelIdeal.Messages.aggregate x src dst (filt basis W b) := by
  rw [← filter_stage]
  rfl

end Cert.ReferenceIdeal.RefValue

end
-- ==== Proof.lean ====
/-
  Messages along 1600000 edges, filtered edge by edge, summed at 100000 nodes: the packed kernel against jnp.

  Both programs compute, for node features `x` (100000 × 64), a radial basis per edge (1600000 × 128), source and
  destination node indices per edge, weights `W` (64 × 128) and a bias `b` (64):
      filt[e, d] = Σ_{k < 128} basis[e, k] · W[d, k] + b[d]
      h[n, d]    = Σ_{e : dst[e] = n} x[src[e], d] · filt[e, d]                (gather, multiply, scatter-add).
  The reference writes `filt` as one contraction. The kernel program packs two consecutive edges into one 256-wide
  row, multiplies 8000 such rows at a time by the block-diagonal 256 × 128 matrix `[[Wᵀ, 0], [0, Wᵀ]]` on a grid of
  100 points, adds `b` doubled, and re-reads the 800000 × 128 product as 1600000 × 64 before the same gather,
  multiply and scatter-add.

  At the ideal values (extended reals, exact operations, narrowing to sixteen bits the identity) the two filters are
  one function: in each packed row's 256-term sum, the 128 terms that meet a zero block of the matrix are products
  with zero, which vanish for every extended real, and the other 128 terms are the reference's. No entry has to be
  finite for this, so the precondition is never opened. The modules, in the order of the argument:
    Packed    the filter, a packed row, and the two half-sum laws (no program);
    Payload   the kernel body's stored value at an entry: a 256-term sum plus the bias row's entry;
    Rows      what a grid point writes back is a block of one packed array; the 100 blocks tile it;
    Operands  the paired rows, the block-diagonal matrix, the doubled bias and the un-packing, each read at an entry;
    Unpacked  un-packing the packed product of those three gives the filter;
    Messages  the common gather / multiply / scatter-add, and the kernel program's run with its result named;
    RefFilter the reference's contraction-plus-bias stage is the filter, and its result the same aggregation.
  No operation of the kernel was replaced on the way to its idealized form — the idealized kernel is the kernel's
  own text read at the extended reals — so that the one is the sanctioned idealization of the other has no conjunct
  to prove.
-/
import proofs.«175159_j86861418594987_2_alg».proof.Defs
import proofs.«175159_j86861418594987_2_alg».proof.Proof.Gen.Kernel
import proofs.«175159_j86861418594987_2_alg».proof.Proof.Gen.Kernel.Skeleton
import proofs.«175159_j86861418594987_2_alg».proof.Proof.Gen.Kernel.Launch
import proofs.«175159_j86861418594987_2_alg».proof.Proof.Gen.Kernel.Points
import proofs.«175159_j86861418594987_2_alg».proof.Proof.Gen.Kernel.Frame
import proofs.«175159_j86861418594987_2_alg».proof.Proof.Gen.KernelIdeal
import proofs.«175159_j86861418594987_2_alg».proof.Proof.Gen.KernelIdeal.Skeleton
import proofs.«175159_j86861418594987_2_alg».proof.Proof.Gen.KernelIdeal.Launch
import proofs.«175159_j86861418594987_2_alg».proof.Proof.Gen.KernelIdeal.Points
import proofs.«175159_j86861418594987_2_alg».proof.Proof.Gen.KernelIdeal.Frame
import proofs.«175159_j86861418594987_2_alg».proof.Proof.Gen.ReferenceIdeal
import proofs.«175159_j86861418594987_2_alg».proof.Proof.Gen.ReferenceIdeal.Run
import proofs.«175159_j86861418594987_2_alg».proof.Proof.Gen.ReferenceIdeal.Read
import proofs.«175159_j86861418594987_2_alg».proof.Proof.Gen.Pre_finite_inputs
import proofs.«175159_j86861418594987_2_alg».proof.Proof.Messages
import proofs.«175159_j86861418594987_2_alg».proof.Proof.Unpacked
import proofs.«175159_j86861418594987_2_alg».proof.Proof.RefFilter
import Idealize.ShloMosaic.Adequacy
import Idealize.ShloMosaic.Init

noncomputable section

namespace Cert.Proof

open Idealize.ShloMosaic Idealize.ShloMosaic.TcCoe Idealize.SL.Sem

/-- The three programs run, fault-free, and leave their arguments as they were. -/
theorem frame_kernel : Cert.frame_Kernel := fun m ρ _ => Cert.Kernel.Gen.frame m ρ
theorem frame_kernel_ideal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten on the way to the idealized kernel. -/
theorem preserves : Cert.preserves_Kernel_KernelIdeal := trivial

/-- The idealized kernel program's result is the aggregation of its arguments and the FILTER: its run, with the
    un-packed packed product replaced by the filter it equals. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      fun r => ∀ c : Dev Cert.KernelIdeal.nD,
        r.2.mem ((c.tc : Thread Cert.KernelIdeal.nD Cert.KernelIdeal.τ).loc Cert.KernelIdeal.main_v20)
          = Cert.KernelIdeal.Messages.aggregate
              (m ((c.tc : Thread Cert.KernelIdeal.nD Cert.KernelIdeal.τ).loc Cert.KernelIdeal.main_arg0))
              (m ((c.tc : Thread Cert.KernelIdeal.nD Cert.KernelIdeal.τ).loc Cert.KernelIdeal.main_arg2))
              (m ((c.tc : Thread Cert.KernelIdeal.nD Cert.KernelIdeal.τ).loc Cert.KernelIdeal.main_arg3))
              (Cert.EdgeFilter.filt
                (m ((c.tc : Thread Cert.KernelIdeal.nD Cert.KernelIdeal.τ).loc Cert.KernelIdeal.main_arg1))
                (m ((c.tc : Thread Cert.KernelIdeal.nD Cert.KernelIdeal.τ).loc Cert.KernelIdeal.main_arg4))
                (m ((c.tc : Thread Cert.KernelIdeal.nD Cert.KernelIdeal.τ).loc Cert.KernelIdeal.main_arg5)))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5) :=
  (θ_run Cert.KernelIdeal.defs _ _).mono
    (fun _ h c => ⟨(h c).1.trans (congrArg _ (Cert.KernelIdeal.Unpacked.unpack_packed _ _ _)), (h c).2⟩)
    (Cert.KernelIdeal.Messages.run m ρ)

/-- From memories that agree on the six arguments both idealized programs end with the same result: the aggregation
    of the arguments and the filter. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.result_eq,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
